-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S850000x1, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x64, .f32⟩
  | .hbm, ⟨115, _⟩ => ⟨S850000x1, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result NAMED. The program is two grid launches among stretches of
  host operations; its buffer contents at each boundary are a fold from the launch memory (the generated
  `Gen.W0 … Gen.W7`: a host stretch applies its operations, a launch replaces its output array by what its
  write-backs leave). Every unscoped buffer ends at the last boundary's contents `W7`, so the result buffer
  ends at `W7` read at the result, and each argument ends as launched.
-/
import proofs.«179257_j1855425872439_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    last boundary's contents at the result, and the six arguments are as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.NamedRun

end
-- ==== Proof.Spec.lean ====
/-
  The graph convolution both programs compute, stage by stage, as functions of arrays.

  An edge list has two rows (sources, destinations) of 800000 node indices; every node gets a self loop, so each
  row is followed by the node indices 0 … 49999 (`withLoops`). A negative index counts from the end (`wrap`). A
  node's degree is the number of listed destinations equal to it (a scatter-add of ones); an edge's weight is the
  product of the inverse square roots of its two endpoints' degrees, taken as 0 where the degree is not positive.
  Aggregation gathers the source rows of a node table, scales each by its edge's weight, and scatter-adds it into
  the destination row of a zero table. The layer between the two aggregations adds a bias row and cuts off below
  at zero; the last step adds a bias row.

  Every stage is written with the host operations themselves, so that a program's buffer after a stretch of host
  operations IS a stage of the buffers before it; nothing here is evaluated.
-/
import proofs.«179257_j1855425872439_1_alg».proof.Proof.Gen.ReferenceIdeal

noncomputable section

namespace Cert.Gcn

open Cert.ReferenceIdeal Cert.ReferenceIdeal.Facts₀ Cert.ReferenceIdeal.Facts Idealize.ShloMosaic

variable {F : FTy → Type} [FloatOps F]

/-- Row `r` of the edge list, as a vector of 800000 indices. -/
def row0 (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000
def row1 (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- A row of endpoints followed by one self loop per node. -/
def withLoops (row : (⟨S800000, .i32⟩ : BufTy).Contents (Elt F)) : (⟨S850000, .i32⟩ : BufTy).Contents (Elt F) :=
  concatenate S850000 0 [⟨S800000, row⟩, ⟨S50000, iotaInDim S50000 32 0⟩] concatenates_S800000_S50000_S850000_d0

/-- A negative index counts from the end of the 50000 nodes. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- How many listed destinations each node is. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- Is the degree positive, and its inverse square root. -/
def degPos (d : (⟨S850000, .i32⟩ : BufTy).Contents (Elt F)) : (⟨S50000, .i1⟩ : BufTy).Contents (Elt F) :=
  cmpf (F := F) .ogt (degree d) (broadcastInDim S50000 ![] bcast_S_S50000 (constant S_ .f32 0x00000000#32))
def degRsqrt (d : (⟨S850000, .i32⟩ : BufTy).Contents (Elt F)) : (⟨S50000, .f32⟩ : BufTy).Contents (Elt F) :=
  Host.rsqrt (degree d)

/-- The inverse square root of the degree where it is positive, the given filler elsewhere. -/
def pick (p : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select p r (broadcastInDim S50000 ![] bcast_S_S50000 (id z))

/-- Each edge's weight: the product of its two endpoints' entries of a per-node table. -/
def weights (t : (⟨S50000, .f32⟩ : BufTy).Contents (Elt F)) (s d : (⟨S850000, .i32⟩ : BufTy).Contents (Elt F)) :
    (⟨S850000, .f32⟩ : BufTy).Contents (Elt F) :=
  mulf (Host.gather gather_S50000_S850000x1_S850000_n_0_n_n_0_1_1 t (broadcastInDim S850000x1 ![0] bcast_S850000_S850000x1_0 (wrap s)))
    (Host.gather gather_S50000_S850000x1_S850000_n_0_n_n_0_1_1 t (broadcastInDim S850000x1 ![0] bcast_S850000_S850000x1_0 (wrap d)))

/-- The edge weights from the two rows of endpoints: symmetric normalisation by the destinations' degrees. -/
def weightsOf (s0 d0 : (⟨S800000, .i32⟩ : BufTy).Contents (Elt F)) : (⟨S850000, .f32⟩ : BufTy).Contents (Elt F) :=
  weights (pick (degPos (withLoops d0)) (degRsqrt (withLoops d0)) (constant S_ .f32 0x00000000#32))
    (withLoops s0) (withLoops d0)

/-- The edge weights of an edge list. -/
def edgeWeights (ei : (⟨S2x800000, .i32⟩ : BufTy).Contents (Elt F)) : (⟨S850000, .f32⟩ : BufTy).Contents (Elt F) :=
  weightsOf (row0 ei) (row1 ei)

/-- Gather the source rows of a 128-column node table, scale by the edge weights, scatter-add into the destination rows. -/
def aggregate128 (h : (⟨S50000x128, .f32⟩ : BufTy).Contents (Elt F)) (s d : (⟨S850000, .i32⟩ : BufTy).Contents (Elt F))
    (w : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (broadcastInDim S850000x1 ![0] bcast_S850000_S850000x1_0 (wrap s)))
      (broadcastInDim S850000x128 ![0, 1] bcast_S850000x1_S850000x128_0_1 (broadcastInDim S850000x1 ![0] bcast_S850000_S850000x1_0 w)))

/-- The same on a 64-column node table. -/
def aggregate64 (h : (⟨S50000x64, .f32⟩ : BufTy).Contents (Elt F)) (s d : (⟨S850000, .i32⟩ : BufTy).Contents (Elt F))
    (w : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (broadcastInDim S850000x1 ![0] bcast_S850000_S850000x1_0 (wrap s)))
      (broadcastInDim S850000x64 ![0, 1] bcast_S850000x1_S850000x64_0_1 (broadcastInDim S850000x1 ![0] bcast_S850000_S850000x1_0 w)))

/-- Add a bias row to every node's row and cut off below at zero. -/
def activate (a : (⟨S50000x128, .f32⟩ : BufTy).Contents (Elt F)) (b : (⟨S1x128, .f32⟩ : BufTy).Contents (Elt F)) :
    (⟨S50000x128, .f32⟩ : BufTy).Contents (Elt F) :=
  maximumf (addf a (broadcastInDim S50000x128 ![0, 1] bcast_S1x128_S50000x128_0_1 b))
    (broadcastInDim S50000x128 ![] bcast_S_S50000x128 (constant S_ .f32 0x00000000#32))

/-- Add a bias row to every node's row. -/
def addBias64 (a : (⟨S50000x64, .f32⟩ : BufTy).Contents (Elt F)) (b : (⟨S64, .f32⟩ : BufTy).Contents (Elt F)) :
    (⟨S50000x64, .f32⟩ : BufTy).Contents (Elt F) :=
  addf a (broadcastInDim S50000x64 ![0, 1] bcast_S1x64_S50000x64_0_1 (broadcastInDim S1x64 ![1] bcast_S64_S1x64_1 b))

/-- The first layer's linear map and the second's, as the host's matrix products. -/
def lin1 (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w
def lin2 (x : (⟨S50000x128, .f32⟩ : BufTy).Contents (Elt F)) (w : (⟨S128x64, .f32⟩ : BufTy).Contents (Elt F)) :
    (⟨S50000x64, .f32⟩ : BufTy).Contents (Elt F) :=
  Host.dotGeneral dot_S50000x128_S128x64_S50000x64_1_0_0_1_n_n none x w

/-- The two-layer network: what both programs return, given the bias row of the middle layer as a [1, 128] array. -/
def network (x : (⟨S50000x128, .f32⟩ : BufTy).Contents (Elt F)) (ei : (⟨S2x800000, .i32⟩ : BufTy).Contents (Elt F))
    (w1 : (⟨S128x128, .f32⟩ : BufTy).Contents (Elt F)) (b1 : (⟨S1x128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  addBias64 (aggregate64 (lin2 (activate (aggregate128 (lin1 x w1) (withLoops (row0 ei)) (withLoops (row1 ei)) (edgeWeights ei)) b1) w2)
    (withLoops (row0 ei)) (withLoops (row1 ei)) (edgeWeights ei)) b2

end Cert.Gcn

end
-- ==== Proof.Region0.lean ====
/-
  The first launch: ten row blocks of 5000 nodes. At a grid point the body loads a [5000, 128] block of the node
  features and the whole [128, 128] weight matrix, and stores their product into the output block. An entry of a
  product into a zero accumulator is the sum over the contracted axis of the products of the operands' entries
  (a change of float format is the identity on the extended reals), and row `p` of block `t` is row `5000 t + p` of
  the array; so the output array ends as the host's matrix product of the two arrays the launch was entered
  with, whatever those are.
-/
import proofs.«179257_j1855425872439_1_alg».proof.Proof.Gen.KernelIdeal.Frame
import proofs.«179257_j1855425872439_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-! ## Index bookkeeping: entry (r, k) of the left operand, entry (k, q) of the right one -/

/-- Row of `j`, column `k`, in a [5000, 128] block. -/
abbrev blkL (j : S5000x128.Idx) (k : Fin 128) : S5000x128.Idx := fun a => match a with
  | ⟨0, _⟩ => ⟨(j 0).val, (j 0).isLt⟩
  | ⟨1, _⟩ => ⟨k.val, k.isLt⟩
/-- Row `k`, column of `j`, in the [128, 128] matrix. -/
abbrev blkR (j : S5000x128.Idx) (k : Fin 128) : S128x128.Idx := fun a => match a with
  | ⟨0, _⟩ => ⟨k.val, k.isLt⟩
  | ⟨1, _⟩ => ⟨(j 1).val, (j 1).isLt⟩
/-- The same two in the whole [50000, 128] array. -/
abbrev arrL (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
abbrev arrR (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

/-! ## The body's product at an entry -/

theorem kL0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem kL1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem kR0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem kR1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- An entry of the stored block: the sum over the 128 contracted positions. -/
theorem pay_apply (x0 : Vec Ideal S5000x128 .f32) (x1 : Vec Ideal S128x128 .f32) (j : S5000x128.Idx) :
    k0_pay1 (F := Ideal) x0 x1 j = ∑ k : Fin 128, x0 (blkL j k) * x1 (blkR j k) := by
  show matmul dot_S5000x128_S128x128_S5000x128_1_0_0_1_n_n none (truncf .bf16 x0 Facts₀.bitsLt_bf16_f32) (truncf .bf16 x1 Facts₀.bitsLt_bf16_f32)
      (constant (F := Ideal) S5000x128 .f32 0x00000000#32) j = _
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkL j k := funext fun a => Fin.ext (by
    match a with
    | ⟨0, _⟩ => exact kL0 _ _
    | ⟨1, _⟩ => exact (kL1 _ _).trans hk)
  have er : dot_S5000x128_S128x128_S5000x128_1_0_0_1_n_n.rhsIdx j ((ValueIdx.contrEquiv1 dot_S5000x128_S128x128_S5000x128_1_0_0_1_n_n 128 rfl rfl).symm k) = blkR j k := funext fun a => Fin.ext (by
    match a with
    | ⟨0, _⟩ => exact (kR0 _ _).trans hk
    | ⟨1, _⟩ => exact kR1 _ _)
  rw [el, er]
  rfl

/-! ## The host's product at an entry -/

section Host
open Cert.ReferenceIdeal

theorem hL0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem hL1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem hR0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem hR1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- An entry of the host's product: the same sum over the whole arrays. -/
theorem lin1_apply (x : (⟨S50000x128, .f32⟩ : BufTy).Contents (Elt Ideal)) (w : (⟨S128x128, .f32⟩ : BufTy).Contents (Elt Ideal)) (i : S50000x128.Idx) :
    Cert.Gcn.lin1 (F := Ideal) x w i = ∑ k : Fin 128, x (arrL i k) * w (arrR i k) := by
  unfold Cert.Gcn.lin1
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = arrL i k := funext fun a => Fin.ext (by
    match a with
    | ⟨0, _⟩ => exact hL0 _ _
    | ⟨1, _⟩ => exact (hL1 _ _).trans hk)
  have er : dot_S50000x128_S128x128_S50000x128_1_0_0_1_n_n.rhsIdx i ((ValueIdx.contrEquiv1 dot_S50000x128_S128x128_S50000x128_1_0_0_1_n_n 128 rfl rfl).symm k) = arrR i k := funext fun a => Fin.ext (by
    match a with
    | ⟨0, _⟩ => exact (hR0 _ _).trans hk
    | ⟨1, _⟩ => exact hR1 _ _)
  rw [el, er]

end Host

/-! ## From blocks to the array -/

theorem hz : (![0, 0] : Fin 2 → Nat) = fun _ => 0 := funext fun a => by fin_cases a <;> rfl

/-- The three windows' block indices at every grid point: the features' and the output's row block is the point,
    everything else is block 0. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the host's product of the two arrays the launch was entered with. -/
theorem flushed_eq (c : Dev nD) (t : Fin cfg0.N) :
    (dat0 (F := Ideal) V c).flushed 2 t
      = ((cfg0.win 2).blk t).view.read (Elt Ideal) (Cert.Gcn.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := blockIdx t
  funext j
  show k0_pay1 (F := Ideal) (iblk0 V c 0 t) (iblk0 V c 1 t) j
    = Cert.Gcn.lin1 (F := Ideal) (V c main_arg0) (V c main_arg2) (((cfg0.win 2).blk t).view.emb j)
  rw [pay_apply, lin1_apply]
  refine Finset.sum_congr rfl fun k _ => ?_
  have h0 : ((cfg0.win 0).blk t).view.emb (blkL j k) = arrL (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (blkR j k) = arrR (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hA : iblk0 V c 0 t (blkL j k) = (V c main_arg0 : Cert.ReferenceIdeal.S50000x128.Idx → EReal) (arrL (((cfg0.win 2).blk t).view.emb j) k) :=
    congrArg (V c main_arg0 : Cert.ReferenceIdeal.S50000x128.Idx → EReal) h0
  have hB : iblk0 V c 1 t (blkR j k) = (V c main_arg2 : Cert.ReferenceIdeal.S128x128.Idx → EReal) (arrR (((cfg0.win 2).blk t).view.emb j) k) :=
    congrArg (V c main_arg2 : Cert.ReferenceIdeal.S128x128.Idx → EReal) h1
  rw [hA, hB]

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output is written back by grid point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := blockIdx t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the launch. -/
theorem final (c : Dev nD) :
    (dat0 (F := Ideal) V c).arrAt 2 cfg0.N = Cert.Gcn.lin1 (F := Ideal) (V c main_arg0) (V c main_arg2) :=
  (dat0 V c).arrAt_eq_of_cover 2 _ (fun t _ => flushed_eq V c t) cover

end Cert.KernelIdeal.Region0

end
-- ==== Proof.Region1.lean ====
/-
  The second launch: ten row blocks of 5000 nodes. At a grid point the body loads a [5000, 128] block of the
  aggregated features, the [1, 128] bias row and the whole [128, 64] weight matrix, adds the bias row to every row
  of the block, cuts off below at zero, and stores the product with the weights into the output block. Entry by
  entry that is the sum over the 128 contracted positions of max(a + b, 0) times the weight; row `p` of block `t`
  is row `5000 t + p` of the array, and the bias row and the weights are the same at every point. So the output
  array ends as the host's matrix product of the activated table with the weights, on whatever arrays the launch
  was entered with.
-/
import proofs.«179257_j1855425872439_1_alg».proof.Proof.Gen.KernelIdeal.Frame
import proofs.«179257_j1855425872439_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-! ## Index bookkeeping -/

/-- Row of `j`, column `k`, in a [5000, 128] block. -/
abbrev blkL (j : S5000x64.Idx) (k : Fin 128) : S5000x128.Idx := fun a => match a with
  | ⟨0, _⟩ => ⟨(j 0).val, (j 0).isLt⟩
  | ⟨1, _⟩ => ⟨k.val, k.isLt⟩
/-- Row `k`, column of `j`, in the [128, 64] matrix. -/
abbrev blkR (j : S5000x64.Idx) (k : Fin 128) : S128x64.Idx := fun a => match a with
  | ⟨0, _⟩ => ⟨k.val, k.isLt⟩
  | ⟨1, _⟩ => ⟨(j 1).val, (j 1).isLt⟩
/-- Entry `k` of the [1, 128] bias row. -/
abbrev biasAt (k : Fin 128) : S1x128.Idx := fun a => match a with
  | ⟨0, _⟩ => ⟨0, by show 0 < 1; omega⟩
  | ⟨1, _⟩ => ⟨k.val, k.isLt⟩
/-- The same in the whole arrays. -/
abbrev arrL (i : Cert.ReferenceIdeal.S50000x64.Idx) (k : Fin 128) : Cert.ReferenceIdeal.S50000x128.Idx := fun a => match a with
  | ⟨0, _⟩ => ⟨(i 0).val, (i 0).isLt⟩
  | ⟨1, _⟩ => ⟨k.val, k.isLt⟩
abbrev arrR (i : Cert.ReferenceIdeal.S50000x64.Idx) (k : Fin 128) : Cert.ReferenceIdeal.S128x64.Idx := fun a => match a with
  | ⟨0, _⟩ => ⟨k.val, k.isLt⟩
  | ⟨1, _⟩ => ⟨(i 1).val, (i 1).isLt⟩
abbrev arrB (k : Fin 128) : Cert.ReferenceIdeal.S1x128.Idx := fun a => match a with
  | ⟨0, _⟩ => ⟨0, by show 0 < 1; omega⟩
  | ⟨1, _⟩ => ⟨k.val, k.isLt⟩

/-! ## The body's product at an entry -/

theorem kL0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem kL1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem kR0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem kR1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- An entry of the stored block: the sum over the 128 contracted positions of the activated entry times the weight. -/
theorem pay_apply (x0 : Vec Ideal S5000x128 .f32) (x1 : Vec Ideal S1x128 .f32) (x2 : Vec Ideal S128x64 .f32) (j : S5000x64.Idx) :
    k1_pay1 (F := Ideal) x0 x1 x2 j
      = ∑ k : Fin 128, max (x0 (blkL j k) + x1 (biasAt k)) (Ideal.ofBits .f32 0x00000000#32) * x2 (blkR j k) := by
  show matmul dot_S5000x128_S128x64_S5000x64_1_0_0_1_n_n none
      (truncf .bf16 (maximumf (addf (shapeCast S5000x128 x0 Facts₀.shapeCasts_S5000x128_S5000x128)
          (broadcastTo S5000x128 (shapeCast S1x128 x1 Facts₀.shapeCasts_S1x128_S1x128) Facts₀.broadcasts_S1x128_S5000x128))
        (broadcast S5000x128 (Scalar.ofBits (F := Ideal) .f32 0x00000000#32))) Facts₀.bitsLt_bf16_f32)
      (truncf .bf16 x2 Facts₀.bitsLt_bf16_f32) (constant (F := Ideal) S5000x64 .f32 0x00000000#32) j = _
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkL j k := funext fun a => Fin.ext (by
    match a with
    | ⟨0, _⟩ => exact kL0 _ _
    | ⟨1, _⟩ => exact (kL1 _ _).trans hk)
  have er : dot_S5000x128_S128x64_S5000x64_1_0_0_1_n_n.rhsIdx j ((ValueIdx.contrEquiv1 dot_S5000x128_S128x64_S5000x64_1_0_0_1_n_n 128 rfl rfl).symm k) = blkR j k := funext fun a => Fin.ext (by
    match a with
    | ⟨0, _⟩ => exact (kR0 _ _).trans hk
    | ⟨1, _⟩ => exact kR1 _ _)
  rw [el, er]
  show max (shapeCast S5000x128 x0 Facts₀.shapeCasts_S5000x128_S5000x128 (blkL j k)
        + broadcastTo S5000x128 (shapeCast S1x128 x1 Facts₀.shapeCasts_S1x128_S1x128) Facts₀.broadcasts_S1x128_S5000x128 (blkL j k))
      (Ideal.ofBits .f32 0x00000000#32) * x2 (blkR j k) = _
  rw [shapeCast_self, shapeCast_self,
    broadcastTo_apply x1 Facts₀.broadcasts_S1x128_S5000x128 (blkL j k) (biasAt k) (fun a => by
      match a with
      | ⟨0, _⟩ => rfl
      | ⟨1, _⟩ => rfl)]

/-! ## The host's product of the activated table at an entry -/

section Host
open Cert.ReferenceIdeal

theorem hL0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem hL1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem hR0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem hR1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- An entry of the host's product. -/
theorem lin2_apply (x : (⟨S50000x128, .f32⟩ : BufTy).Contents (Elt Ideal)) (w : (⟨S128x64, .f32⟩ : BufTy).Contents (Elt Ideal)) (i : S50000x64.Idx) :
    Cert.Gcn.lin2 (F := Ideal) x w i = ∑ k : Fin 128, x (arrL i k) * w (arrR i k) := by
  unfold Cert.Gcn.lin2
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = arrL i k := funext fun a => Fin.ext (by
    match a with
    | ⟨0, _⟩ => exact hL0 _ _
    | ⟨1, _⟩ => exact (hL1 _ _).trans hk)
  have er : dot_S50000x128_S128x64_S50000x64_1_0_0_1_n_n.rhsIdx i ((ValueIdx.contrEquiv1 dot_S50000x128_S128x64_S50000x64_1_0_0_1_n_n 128 rfl rfl).symm k) = arrR i k := funext fun a => Fin.ext (by
    match a with
    | ⟨0, _⟩ => exact (hR0 _ _).trans hk
    | ⟨1, _⟩ => exact hR1 _ _)
  rw [el, er]

/-- An entry of the activated table: the aggregated entry plus the bias of its column, cut off below at zero. -/
theorem activate_apply (a : (⟨S50000x128, .f32⟩ : BufTy).Contents (Elt Ideal)) (b : (⟨S1x128, .f32⟩ : BufTy).Contents (Elt Ideal))
    (i : S50000x64.Idx) (k : Fin 128) :
    Cert.Gcn.activate (F := Ideal) a b (arrL i k) = max (a (arrL i k) + b (arrB k)) (Ideal.ofBits .f32 0x00000000#32) := by
  unfold Cert.Gcn.activate
  show max (a (arrL i k) + broadcastInDim S50000x128 ![0, 1] Facts₀.bcast_S1x128_S50000x128_0_1 b (arrL i k))
      (broadcastInDim S50000x128 ![] Facts₀.bcast_S_S50000x128 (constant (F := Ideal) S_ .f32 0x00000000#32) (arrL i k)) = _
  rw [broadcastInDim_apply ![0, 1] Facts₀.bcast_S1x128_S50000x128_0_1 b (arrL i k) (arrB k) (fun a => by
      match a with
      | ⟨0, _⟩ => rfl
      | ⟨1, _⟩ => rfl),
    broadcastInDim_apply ![] Facts₀.bcast_S_S50000x128 (constant (F := Ideal) S_ .f32 0x00000000#32) (arrL i k) (fun a => a.elim0) (fun a => a.elim0)]
  rfl

end Host

/-! ## From blocks to the array -/

theorem hz : (![0, 0] : Fin 2 → Nat) = fun _ => 0 := funext fun a => by fin_cases a <;> rfl

/-- The four windows' block indices at every grid point: the aggregated features' and the output's row block is the
    point, everything else is block 0. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the host's product of the activated table with the weights, on the
    arrays the launch was entered with. -/
theorem flushed_eq (c : Dev nD) (t : Fin cfg1.N) :
    (dat1 (F := Ideal) V c).flushed 3 t
      = ((cfg1.win 3).blk t).view.read (Elt Ideal)
          (Cert.Gcn.lin2 (F := Ideal) (Cert.Gcn.activate (F := Ideal) (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  obtain ⟨e0, e1, e2, e3, e4, e5, e6, e7⟩ := blockIdx t
  funext j
  show k1_pay1 (F := Ideal) (iblk1 V c 0 t) (iblk1 V c 1 t) (iblk1 V c 2 t) j
    = Cert.Gcn.lin2 (F := Ideal) (Cert.Gcn.activate (F := Ideal) (V c main_v43) (V c main_v44)) (V c main_arg4) (((cfg1.win 3).blk t).view.emb j)
  rw [pay_apply, lin2_apply]
  refine Finset.sum_congr rfl fun k _ => ?_
  rw [activate_apply]
  have h0 : ((cfg1.win 0).blk t).view.emb (blkL j k) = arrL (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (biasAt k) = arrB k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (blkR j k) = arrR (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  have hA : iblk1 V c 0 t (blkL j k) = (V c main_v43 : Cert.ReferenceIdeal.S50000x128.Idx → EReal) (arrL (((cfg1.win 3).blk t).view.emb j) k) :=
    congrArg (V c main_v43 : Cert.ReferenceIdeal.S50000x128.Idx → EReal) h0
  have hB : iblk1 V c 1 t (biasAt k) = (V c main_v44 : Cert.ReferenceIdeal.S1x128.Idx → EReal) (arrB k) :=
    congrArg (V c main_v44 : Cert.ReferenceIdeal.S1x128.Idx → EReal) h1
  have hC : iblk1 V c 2 t (blkR j k) = (V c main_arg4 : Cert.ReferenceIdeal.S128x64.Idx → EReal) (arrR (((cfg1.win 3).blk t).view.emb j) k) :=
    congrArg (V c main_arg4 : Cert.ReferenceIdeal.S128x64.Idx → EReal) h2
  rw [hA, hB, hC]

/-- An index of the output array is in point `t`'s block iff each coordinate is in the block's range. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Row `r` of the output is written back by grid point `r / 5000`. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5, e6, e7⟩ := blockIdx t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the launch. -/
theorem final (c : Dev nD) :
    (dat1 (F := Ideal) V c).arrAt 3 cfg1.N
      = Cert.Gcn.lin2 (F := Ideal) (Cert.Gcn.activate (F := Ideal) (V c main_v43) (V c main_v44)) (V c main_arg4) :=
  (dat1 V c).arrAt_eq_of_cover 3 _ (fun t _ => flushed_eq V c t) cover

end Cert.KernelIdeal.Region1

end
-- ==== Proof.KStretch0.lean ====
/-
  The kernel program's host operations before its first launch (three consecutive lines: 18 operations, the 3 of
  the outlined `where`, 19 more), read from any contents `V` before them: they slice the two rows out of the edge
  list, append the self loops, count degrees and weigh the edges — once, for both layers. Each result is a stage
  of the specification applied to the edge-list argument; the other five arguments stay as they were.
-/
import proofs.«179257_j1855425872439_1_alg».proof.Proof.Gen.KernelIdeal.Launch
import proofs.«179257_j1855425872439_1_alg».proof.Proof.Spec
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
theorem before_first (V : Valuation τ sig (Elt F)) :
    (after hostOps0_2 (after hostOps0_1 (after hostOps0 V))) (Proc.devRef .tc main_v5) = Cert.Gcn.withLoops (Cert.Gcn.row0 (V (Proc.devRef .tc main_arg1)))
    ∧ (after hostOps0_2 (after hostOps0_1 (after hostOps0 V))) (Proc.devRef .tc main_v6) = Cert.Gcn.withLoops (Cert.Gcn.row1 (V (Proc.devRef .tc main_arg1)))
    ∧ (after hostOps0_2 (after hostOps0_1 (after hostOps0 V))) (Proc.devRef .tc main_v29) = Cert.Gcn.edgeWeights (V (Proc.devRef .tc main_arg1))
    ∧ (after hostOps0_2 (after hostOps0_1 (after hostOps0 V))) (Proc.devRef .tc main_arg0) = (V (Proc.devRef .tc main_arg0))
    ∧ (after hostOps0_2 (after hostOps0_1 (after hostOps0 V))) (Proc.devRef .tc main_arg2) = (V (Proc.devRef .tc main_arg2))
    ∧ (after hostOps0_2 (after hostOps0_1 (after hostOps0 V))) (Proc.devRef .tc main_arg3) = (V (Proc.devRef .tc main_arg3))
    ∧ (after hostOps0_2 (after hostOps0_1 (after hostOps0 V))) (Proc.devRef .tc main_arg4) = (V (Proc.devRef .tc main_arg4))
    ∧ (after hostOps0_2 (after hostOps0_1 (after hostOps0 V))) (Proc.devRef .tc main_arg5) = (V (Proc.devRef .tc main_arg5)) := by
  unfold hostOps0 hostOps0_1 hostOps0_2
  refine ⟨?_, ?_, ?_, ?_, ?_, ?_, ?_, ?_⟩
  · after_results; rfl
  · after_results; rfl
  · after_results; rfl
  · after_results
  · after_results
  · after_results
  · after_results
  · after_results

end Cert.KernelIdeal.Stretch

end
-- ==== Proof.KStretch1.lean ====
/-
  The kernel program's 17 host operations between its two launches, read from any contents `V` before them: the
  first aggregation of the first launch's table (gather the source rows, scale by the edge weights, scatter-add
  into the destination rows), and the middle bias recast as a [1, 128] row. The endpoints, the weights and the
  remaining arguments stay as they were.
-/
import proofs.«179257_j1855425872439_1_alg».proof.Proof.Gen.KernelIdeal.Launch
import proofs.«179257_j1855425872439_1_alg».proof.Proof.Spec
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
theorem between (V : Valuation τ sig (Elt F)) :
    after hostOps1 V (Proc.devRef .tc main_v43)
      = Cert.Gcn.aggregate128 (V (Proc.devRef .tc main_v30)) (V (Proc.devRef .tc main_v5)) (V (Proc.devRef .tc main_v6)) (V (Proc.devRef .tc main_v29))
    ∧ after hostOps1 V (Proc.devRef .tc main_v44) = shapeCast S1x128 (V (Proc.devRef .tc main_arg3)) Facts₀.shapeCasts_S128_S1x128
    ∧ after hostOps1 V (Proc.devRef .tc main_arg4) = (V (Proc.devRef .tc main_arg4))
    ∧ after hostOps1 V (Proc.devRef .tc main_v5) = (V (Proc.devRef .tc main_v5))
    ∧ after hostOps1 V (Proc.devRef .tc main_v6) = (V (Proc.devRef .tc main_v6))
    ∧ after hostOps1 V (Proc.devRef .tc main_v29) = (V (Proc.devRef .tc main_v29))
    ∧ after hostOps1 V (Proc.devRef .tc main_arg5) = (V (Proc.devRef .tc main_arg5)) := by
  unfold hostOps1
  refine ⟨?_, ?_, ?_, ?_, ?_, ?_, ?_⟩
  · after_results; rfl
  · after_results; rfl
  · after_results
  · after_results
  · after_results
  · after_results
  · after_results

end Cert.KernelIdeal.Stretch

end
-- ==== Proof.KStretch2.lean ====
/-
  The kernel program's 19 host operations after its second launch, read from any contents `V` before them: the
  second aggregation, of the second launch's table, and the last bias row.
-/
import proofs.«179257_j1855425872439_1_alg».proof.Proof.Gen.KernelIdeal.Launch
import proofs.«179257_j1855425872439_1_alg».proof.Proof.Spec
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
theorem after_second (V : Valuation τ sig (Elt F)) :
    after hostOps2 V (Proc.devRef .tc main_v61)
      = Cert.Gcn.addBias64 (Cert.Gcn.aggregate64 (V (Proc.devRef .tc main_v45)) (V (Proc.devRef .tc main_v5)) (V (Proc.devRef .tc main_v6)) (V (Proc.devRef .tc main_v29))) (V (Proc.devRef .tc main_arg5)) := by
  unfold hostOps2
  after_results
  rfl

end Cert.KernelIdeal.Stretch

end
-- ==== Proof.KernelValue.lean ====
/-
  The idealized kernel's result, as the two-layer network of its arguments.

  Boundary by boundary: before the first launch the host has the endpoints with self loops and the edge weights;
  the first launch leaves the first linear map's table (its output array is the host's matrix product of the
  features with the first weights) and touches nothing else; the host then aggregates that table and recasts the
  middle bias as a row; the second launch leaves the second linear map of the activated table; the host
  aggregates once more, with the same endpoints and weights, and adds the last bias.
-/
import proofs.«179257_j1855425872439_1_alg».proof.Proof.Gen.KernelIdeal.Frame
import proofs.«179257_j1855425872439_1_alg».proof.Proof.Spec
import proofs.«179257_j1855425872439_1_alg».proof.Proof.Region0
import proofs.«179257_j1855425872439_1_alg».proof.Proof.Region1
import proofs.«179257_j1855425872439_1_alg».proof.Proof.KStretch0
import proofs.«179257_j1855425872439_1_alg».proof.Proof.KStretch1
import proofs.«179257_j1855425872439_1_alg».proof.Proof.KStretch2

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 1000000 in
/-- The result buffer's contents at the last boundary. -/
theorem value (c : Dev nD) :
    W7 (F := Ideal) m ρ c (Proc.devRef .tc main_v61)
      = Cert.Gcn.network (F := Ideal) (m ((c.tc : Thread nD τ).loc main_arg0)) (m ((c.tc : Thread nD τ).loc main_arg1))
          (m ((c.tc : Thread nD τ).loc main_arg2))
          (shapeCast S1x128 (m ((c.tc : Thread nD τ).loc main_arg3)) Facts₀.shapeCasts_S128_S1x128)
          (m ((c.tc : Thread nD τ).loc main_arg4)) (m ((c.tc : Thread nD τ).loc main_arg5)) := by
  -- at the first launch's entry
  obtain ⟨s3, d3, w3, a0, a2, a3, a4, a5⟩ := Stretch.before_first (F := Ideal) (W0 m ρ c)
  have s3' : W3 m ρ c (Proc.devRef .tc main_v5) = Cert.Gcn.withLoops (Cert.Gcn.row0 (m ((c.tc : Thread nD τ).loc main_arg1))) := s3
  have d3' : W3 m ρ c (Proc.devRef .tc main_v6) = Cert.Gcn.withLoops (Cert.Gcn.row1 (m ((c.tc : Thread nD τ).loc main_arg1))) := d3
  have w3' : W3 m ρ c (Proc.devRef .tc main_v29) = Cert.Gcn.edgeWeights (m ((c.tc : Thread nD τ).loc main_arg1)) := w3
  have a0' : V3 m ρ c main_arg0 = m ((c.tc : Thread nD τ).loc main_arg0) := a0
  have a2' : V3 m ρ c main_arg2 = m ((c.tc : Thread nD τ).loc main_arg2) := a2
  have a3' : W3 m ρ c (Proc.devRef .tc main_arg3) = m ((c.tc : Thread nD τ).loc main_arg3) := a3
  have a4' : W3 m ρ c (Proc.devRef .tc main_arg4) = m ((c.tc : Thread nD τ).loc main_arg4) := a4
  have a5' : W3 m ρ c (Proc.devRef .tc main_arg5) = m ((c.tc : Thread nD τ).loc main_arg5) := a5
  -- after the first launch: its output array, and everything else as entered
  have f30 : W4 m ρ c (Proc.devRef .tc main_v30)
      = Cert.Gcn.lin1 (F := Ideal) (m ((c.tc : Thread nD τ).loc main_arg0)) (m ((c.tc : Thread nD τ).loc main_arg2)) :=
    (W4_arr m ρ c 2).trans ((Region0.final (V3 m ρ) c).trans (by rw [a0', a2']))
  have f5 := (W4_of_ne m ρ c main_v5 (by decide)).trans s3'
  have f6 := (W4_of_ne m ρ c main_v6 (by decide)).trans d3'
  have f29 := (W4_of_ne m ρ c main_v29 (by decide)).trans w3'
  have fa3 := (W4_of_ne m ρ c main_arg3 (by decide)).trans a3'
  have fa4 := (W4_of_ne m ρ c main_arg4 (by decide)).trans a4'
  have fa5 := (W4_of_ne m ρ c main_arg5 (by decide)).trans a5'
  -- at the second launch's entry
  obtain ⟨g43, g44, g4, g5, g6, g29, ga5⟩ := Stretch.between (F := Ideal) (W4 m ρ c)
  have h43 : V5 m ρ c main_v43 = _ := g43.trans (by rw [f30, f5, f6, f29])
  have h44 : V5 m ρ c main_v44 = _ := g44.trans (by rw [fa3])
  have h4 : V5 m ρ c main_arg4 = _ := g4.trans fa4
  have h5 : W5 m ρ c (Proc.devRef .tc main_v5) = _ := g5.trans f5
  have h6 : W5 m ρ c (Proc.devRef .tc main_v6) = _ := g6.trans f6
  have h29 : W5 m ρ c (Proc.devRef .tc main_v29) = _ := g29.trans f29
  have ha5 : W5 m ρ c (Proc.devRef .tc main_arg5) = _ := ga5.trans fa5
  -- after the second launch
  have k45 : W6 m ρ c (Proc.devRef .tc main_v45) = _ :=
    (W6_arr m ρ c 3).trans ((Region1.final (V5 m ρ) c).trans (by rw [h43, h44, h4]))
  have k5 := (W6_of_ne m ρ c main_v5 (by decide)).trans h5
  have k6 := (W6_of_ne m ρ c main_v6 (by decide)).trans h6
  have k29 := (W6_of_ne m ρ c main_v29 (by decide)).trans h29
  have ka5 := (W6_of_ne m ρ c main_arg5 (by decide)).trans ha5
  -- the last stretch
  refine (Stretch.after_second (F := Ideal) (W6 m ρ c)).trans ?_
  rw [k45, k5, k6, k29, ka5]
  rfl

end Cert.KernelIdeal.Result

end
-- ==== Proof.LibFoldSplit.lean ====
/-
  The fold of a line of host operations over buffer contents, split at a position: running the whole line from
  contents `V` is running its first `k` operations from `V` and the rest from what they leave. A long line can then be
  read back stretch by stretch, each stretch from NAMED contents, instead of in one pass.
-/
import Idealize.ShloMosaic.Lib.StableHlo.Run

noncomputable section

namespace Idealize.ShloMosaic.StableHlo.FoldSplit

open Idealize.ShloMosaic Idealize.ShloMosaic.StableHlo

variable {τ : Topo} {sig : RefSig} {Val : EltTy → Type}

/-- Two lines run one after the other are their concatenation run as one, on the contents as on the program. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line split at position `k`. -/
theorem after_split (k : Nat) (l : List (HloOp τ sig Val)) (V : Valuation τ sig Val) :
    after l V = after (l.drop k) (after (l.take k) V) := by
  rw [← after_append, List.take_append_drop]

end Idealize.ShloMosaic.StableHlo.FoldSplit

end
-- ==== Proof.RefA.lean ====
/-
  The reference's first 41 host operations, read from any contents `V` of the buffers before them: they slice the
  two rows out of the edge list, form the first linear map, append the self loops, count degrees, and weigh the
  edges. Each result is a stage of the specification applied to the argument buffers; the bias and weight
  arguments they do not touch stay as they were.
-/
import proofs.«179257_j1855425872439_1_alg».proof.Proof.RefRun
import proofs.«179257_j1855425872439_1_alg».proof.Proof.Spec

set_option maxRecDepth 16384

noncomputable section

namespace Cert.ReferenceIdeal.Stretch

open Cert.ReferenceIdeal Cert.ReferenceIdeal.ValueP Idealize.ShloMosaic Idealize.ShloMosaic.TcCoe Idealize.SL.Sem Idealize.ShloMosaic.StableHlo

variable {F : FTy → Type} [FloatOps F]

set_option maxHeartbeats 4000000 in
theorem first (V : Valuation τ sig (Elt F)) :
    after (List.take 41 (ops (F := F))) V (Proc.devRef .tc main_v1) = Cert.Gcn.row0 (V (Proc.devRef .tc main_arg1))
    ∧ after (List.take 41 (ops (F := F))) V (Proc.devRef .tc main_v3) = Cert.Gcn.row1 (V (Proc.devRef .tc main_arg1))
    ∧ after (List.take 41 (ops (F := F))) V (Proc.devRef .tc main_v4) = Cert.Gcn.lin1 (V (Proc.devRef .tc main_arg0)) (V (Proc.devRef .tc main_arg2))
    ∧ after (List.take 41 (ops (F := F))) V (Proc.devRef .tc main_v6) = Cert.Gcn.withLoops (Cert.Gcn.row0 (V (Proc.devRef .tc main_arg1)))
    ∧ after (List.take 41 (ops (F := F))) V (Proc.devRef .tc main_v7) = Cert.Gcn.withLoops (Cert.Gcn.row1 (V (Proc.devRef .tc main_arg1)))
    ∧ after (List.take 41 (ops (F := F))) V (Proc.devRef .tc main_v30) = Cert.Gcn.edgeWeights (V (Proc.devRef .tc main_arg1))
    ∧ after (List.take 41 (ops (F := F))) V (Proc.devRef .tc main_arg3) = (V (Proc.devRef .tc main_arg3))
    ∧ after (List.take 41 (ops (F := F))) V (Proc.devRef .tc main_arg4) = (V (Proc.devRef .tc main_arg4))
    ∧ after (List.take 41 (ops (F := F))) V (Proc.devRef .tc main_arg5) = (V (Proc.devRef .tc main_arg5)) := by
  simp only [ops, List.take_succ_cons, List.take_zero]
  refine ⟨?_, ?_, ?_, ?_, ?_, ?_, ?_, ?_, ?_⟩
  · after_results; rfl
  · after_results; rfl
  · after_results; rfl
  · after_results; rfl
  · after_results; rfl
  · after_results; rfl
  · after_results
  · after_results
  · after_results

end Cert.ReferenceIdeal.Stretch

end
-- ==== Proof.RefB.lean ====
/-
  The reference's operations 42 … 64, read from any contents `V` before them: the first aggregation (gather the
  source rows of the linear map's table, scale by the edge weights, scatter-add into the destination rows), the
  bias row and the cut-off at zero, and the second linear map. The two rows of endpoints and the last bias stay.
-/
import proofs.«179257_j1855425872439_1_alg».proof.Proof.RefRun
import proofs.«179257_j1855425872439_1_alg».proof.Proof.Spec

set_option maxRecDepth 16384

noncomputable section

namespace Cert.ReferenceIdeal.Stretch

open Cert.ReferenceIdeal Cert.ReferenceIdeal.ValueP Idealize.ShloMosaic Idealize.ShloMosaic.TcCoe Idealize.SL.Sem Idealize.ShloMosaic.StableHlo

variable {F : FTy → Type} [FloatOps F]

set_option maxHeartbeats 4000000 in
theorem second (V : Valuation τ sig (Elt F)) :
    after (List.take 23 (List.drop 41 (ops (F := F)))) V (Proc.devRef .tc main_v48)
      = Cert.Gcn.lin2 (Cert.Gcn.activate (Cert.Gcn.aggregate128 (V (Proc.devRef .tc main_v4)) (V (Proc.devRef .tc main_v6)) (V (Proc.devRef .tc main_v7)) (V (Proc.devRef .tc main_v30)))
          (broadcastInDim S1x128 ![1] Facts₀.bcast_S128_S1x128_1 (V (Proc.devRef .tc main_arg3)))) (V (Proc.devRef .tc main_arg4))
    ∧ after (List.take 23 (List.drop 41 (ops (F := F)))) V (Proc.devRef .tc main_v1) = (V (Proc.devRef .tc main_v1))
    ∧ after (List.take 23 (List.drop 41 (ops (F := F)))) V (Proc.devRef .tc main_v3) = (V (Proc.devRef .tc main_v3))
    ∧ after (List.take 23 (List.drop 41 (ops (F := F)))) V (Proc.devRef .tc main_arg5) = (V (Proc.devRef .tc main_arg5)) := by
  simp only [ops, List.take_succ_cons, List.take_zero, List.drop_succ_cons, List.drop_zero]
  refine ⟨?_, ?_, ?_, ?_⟩
  · after_results; rfl
  · after_results
  · after_results
  · after_results

end Cert.ReferenceIdeal.Stretch

end
-- ==== Proof.RefC.lean ====
/-
  The reference's operations 65 … 100, read from any contents `V` before them: its second layer appends the self
  loops, counts degrees and weighs the edges once more, from the same two rows of endpoints. The second linear
  map's table and the last bias stay.
-/
import proofs.«179257_j1855425872439_1_alg».proof.Proof.RefRun
import proofs.«179257_j1855425872439_1_alg».proof.Proof.Spec

set_option maxRecDepth 16384

noncomputable section

namespace Cert.ReferenceIdeal.Stretch

open Cert.ReferenceIdeal Cert.ReferenceIdeal.ValueP Idealize.ShloMosaic Idealize.ShloMosaic.TcCoe Idealize.SL.Sem Idealize.ShloMosaic.StableHlo

variable {F : FTy → Type} [FloatOps F]

set_option maxHeartbeats 4000000 in
theorem third (V : Valuation τ sig (Elt F)) :
    after (List.take 36 (List.drop 23 (List.drop 41 (ops (F := F))))) V (Proc.devRef .tc main_v50) = Cert.Gcn.withLoops (V (Proc.devRef .tc main_v1))
    ∧ after (List.take 36 (List.drop 23 (List.drop 41 (ops (F := F))))) V (Proc.devRef .tc main_v51) = Cert.Gcn.withLoops (V (Proc.devRef .tc main_v3))
    ∧ after (List.take 36 (List.drop 23 (List.drop 41 (ops (F := F))))) V (Proc.devRef .tc main_v74) = Cert.Gcn.weightsOf (V (Proc.devRef .tc main_v1)) (V (Proc.devRef .tc main_v3))
    ∧ after (List.take 36 (List.drop 23 (List.drop 41 (ops (F := F))))) V (Proc.devRef .tc main_v48) = (V (Proc.devRef .tc main_v48))
    ∧ after (List.take 36 (List.drop 23 (List.drop 41 (ops (F := F))))) V (Proc.devRef .tc main_arg5) = (V (Proc.devRef .tc main_arg5)) := by
  simp only [ops, List.take_succ_cons, List.take_zero, List.drop_succ_cons, List.drop_zero]
  refine ⟨?_, ?_, ?_, ?_, ?_⟩
  · after_results; rfl
  · after_results; rfl
  · after_results; rfl
  · after_results
  · after_results

end Cert.ReferenceIdeal.Stretch

end
-- ==== Proof.RefD.lean ====
/-
  The reference's last 19 operations, read from any contents `V` before them: the second aggregation and the last
  bias row.
-/
import proofs.«179257_j1855425872439_1_alg».proof.Proof.RefRun
import proofs.«179257_j1855425872439_1_alg».proof.Proof.Spec

set_option maxRecDepth 16384

noncomputable section

namespace Cert.ReferenceIdeal.Stretch

open Cert.ReferenceIdeal Cert.ReferenceIdeal.ValueP Idealize.ShloMosaic Idealize.ShloMosaic.TcCoe Idealize.SL.Sem Idealize.ShloMosaic.StableHlo

variable {F : FTy → Type} [FloatOps F]

set_option maxHeartbeats 4000000 in
theorem fourth (V : Valuation τ sig (Elt F)) :
    after (List.drop 36 (List.drop 23 (List.drop 41 (ops (F := F))))) V (Proc.devRef .tc main_v90)
      = Cert.Gcn.addBias64 (Cert.Gcn.aggregate64 (V (Proc.devRef .tc main_v48)) (V (Proc.devRef .tc main_v50)) (V (Proc.devRef .tc main_v51)) (V (Proc.devRef .tc main_v74))) (V (Proc.devRef .tc main_arg5)) := by
  simp only [ops, List.drop_succ_cons, List.drop_zero]
  after_results
  rfl

end Cert.ReferenceIdeal.Stretch

end
-- ==== Proof.RefValue.lean ====
/-
  The idealized reference's result, as the two-layer network of its arguments: its 119 host operations split
  into four stretches, each read from the contents the previous one leaves.
-/
import proofs.«179257_j1855425872439_1_alg».proof.Proof.RefRun
import proofs.«179257_j1855425872439_1_alg».proof.Proof.Spec
import proofs.«179257_j1855425872439_1_alg».proof.Proof.LibFoldSplit
import proofs.«179257_j1855425872439_1_alg».proof.Proof.RefA
import proofs.«179257_j1855425872439_1_alg».proof.Proof.RefB
import proofs.«179257_j1855425872439_1_alg».proof.Proof.RefC
import proofs.«179257_j1855425872439_1_alg».proof.Proof.RefD

set_option maxRecDepth 16384

noncomputable section

namespace Cert.ReferenceIdeal.Result

open Cert.ReferenceIdeal Cert.ReferenceIdeal.ValueP Idealize.ShloMosaic Idealize.ShloMosaic.TcCoe Idealize.SL.Sem Idealize.ShloMosaic.StableHlo

variable {F : FTy → Type} [FloatOps F]

set_option maxHeartbeats 1000000 in
/-- The result buffer after all the operations, from any contents `V` of the buffers at launch. -/
theorem value (V : Valuation τ sig (Elt F)) :
    after (ops (F := F)) V (Proc.devRef .tc main_v90)
      = Cert.Gcn.network (F := F) (V (Proc.devRef .tc main_arg0)) (V (Proc.devRef .tc main_arg1)) (V (Proc.devRef .tc main_arg2))
          (broadcastInDim S1x128 ![1] Facts₀.bcast_S128_S1x128_1 (V (Proc.devRef .tc main_arg3)))
          (V (Proc.devRef .tc main_arg4)) (V (Proc.devRef .tc main_arg5)) := by
  have split : after (ops (F := F)) V
      = after (List.drop 36 (List.drop 23 (List.drop 41 (ops (F := F)))))
          (after (List.take 36 (List.drop 23 (List.drop 41 (ops (F := F)))))
            (after (List.take 23 (List.drop 41 (ops (F := F)))) (after (List.take 41 (ops (F := F))) V))) := by
    rw [← FoldSplit.after_split, ← FoldSplit.after_split, ← FoldSplit.after_split]
  obtain ⟨a1, a3, a4, a6, a7, a30, aa3, aa4, aa5⟩ := Stretch.first (F := F) V
  obtain ⟨b48, b1, b3, b5⟩ := Stretch.second (F := F) (after (List.take 41 (ops (F := F))) V)
  obtain ⟨c50, c51, c74, c48, c5⟩ := Stretch.third (F := F)
    (after (List.take 23 (List.drop 41 (ops (F := F)))) (after (List.take 41 (ops (F := F))) V))
  have d := Stretch.fourth (F := F) (after (List.take 36 (List.drop 23 (List.drop 41 (ops (F := F)))))
    (after (List.take 23 (List.drop 41 (ops (F := F)))) (after (List.take 41 (ops (F := F))) V)))
  rw [split, d, c48, c50, c51, c74, c5, b48, b1, b3, b5, a4, a6, a7, a30, aa3, aa4, a1, a3, aa5]
  rfl

end Cert.ReferenceIdeal.Result

end
-- ==== Proof.lean ====
/-
  A two-layer graph convolution on 50000 nodes and 800000 edges, with a self loop per node and symmetric
  normalisation by the degrees: the kernel program forms the two linear maps in two grid launches (row blocks of
  5000 nodes; the second launch also adds the middle bias and cuts off below at zero) and leaves gathering,
  weighing and scatter-adding over the edges to the host; the reference does everything on the host.

  On the extended reals the two programs are the same function of their six arguments, stage by stage
  (Proof/Spec.lean): the endpoints with self loops, the edge weights, aggregate ∘ linear map, bias and cut-off,
  aggregate ∘ linear map, bias. A launch's output array is the host's matrix product of the arrays it was entered
  with (Proof/Region0.lean, Proof/Region1.lean): an entry of a product into a zero accumulator is the sum over the
  contracted axis, a change of float format is the identity, and the row blocks tile the array. The kernel
  program weighs the edges once where the reference does it in each layer, from the same rows; it recasts the
  middle bias [128] → [1, 128] where the reference broadcasts it, and the two rows are equal entry by entry. No
  step uses that the inputs are finite: no law beyond reading the same stages is needed.

  The frames: the two kernel programs' are the launch-and-segments proofs of Proof/Gen; the reference's is its
  run with the result dropped. The idealization rewrote nothing, so `preserves` is `True`.
-/
import proofs.«179257_j1855425872439_1_alg».proof.Defs
import proofs.«179257_j1855425872439_1_alg».proof.Proof.Gen.Kernel
import proofs.«179257_j1855425872439_1_alg».proof.Proof.Gen.Kernel.Skeleton
import proofs.«179257_j1855425872439_1_alg».proof.Proof.Gen.Kernel.Launch
import proofs.«179257_j1855425872439_1_alg».proof.Proof.Gen.Kernel.Points
import proofs.«179257_j1855425872439_1_alg».proof.Proof.Gen.Kernel.Frame
import proofs.«179257_j1855425872439_1_alg».proof.Proof.Gen.KernelIdeal
import proofs.«179257_j1855425872439_1_alg».proof.Proof.Gen.KernelIdeal.Skeleton
import proofs.«179257_j1855425872439_1_alg».proof.Proof.Gen.KernelIdeal.Launch
import proofs.«179257_j1855425872439_1_alg».proof.Proof.Gen.KernelIdeal.Points
import proofs.«179257_j1855425872439_1_alg».proof.Proof.Gen.KernelIdeal.Frame
import proofs.«179257_j1855425872439_1_alg».proof.Proof.Gen.ReferenceIdeal
import proofs.«179257_j1855425872439_1_alg».proof.Proof.Gen.Pre_finite_inputs
import proofs.«179257_j1855425872439_1_alg».proof.Proof.KernelRun
import proofs.«179257_j1855425872439_1_alg».proof.Proof.KernelValue
import proofs.«179257_j1855425872439_1_alg».proof.Proof.RefRun
import proofs.«179257_j1855425872439_1_alg».proof.Proof.RefValue
import Idealize.ShloMosaic.Lib.ValueIdx
import Idealize.ShloMosaic.Lib.ValueLayout
import Idealize.ShloMosaic.Lib.Pipeline.Value
import Idealize.ShloMosaic.Adequacy
import Idealize.ShloMosaic.Init

set_option maxRecDepth 16384

noncomputable section

namespace Cert.Proof

open Idealize.ShloMosaic Idealize.ShloMosaic.TcCoe Idealize.SL.Sem

/-- A [128] row recast as a [1, 128] array is that row broadcast along a new leading axis: both read entry `k` at (0, k). -/
theorem biasRow_eq {α : Type} (b : Cert.ReferenceIdeal.S128.Idx → α) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b := by
  funext i
  obtain ⟨u, k, rfl⟩ : ∃ (u : Fin 1) (k : Fin 128), i = ValueIdx.ix2 u k := ⟨i 0, i 1, ValueIdx.eq_ix2 i⟩
  rw [ValueIdx.shapeCast_a_1a_apply,
    broadcastInDim_apply ![1] Cert.ReferenceIdeal.Facts₀.bcast_S128_S1x128_1 b (ValueIdx.ix2 u k) (ValueIdx.ix1 k) (fun a => by
      match a with
      | ⟨0, _⟩ => rfl)]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of the (agreeing) arguments in their result buffers. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v61),
    Cert.KernelIdeal.NamedRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  show _ = Cert.KernelIdeal.Gen.W7 (F := Ideal) m ρ c (Proc.devRef .tc Cert.KernelIdeal.main_v61)
  rw [Cert.ReferenceIdeal.Result.value, Cert.KernelIdeal.Result.value, biasRow_eq]
  exact congr (congr (congr (congr (congr (congrArg (Cert.Gcn.network (F := Ideal)) h0) h1) h2)
    (congrArg (broadcastInDim Cert.ReferenceIdeal.S1x128 ![1] Cert.ReferenceIdeal.Facts₀.bcast_S128_S1x128_1) h3)) h4) h5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
